-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S1024x4096 : Shape := ⟨2, ![1024, 4096]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S1024x4096_S1024x4096_0_0 : ∀ a, (![0, 0] : Fin 2 → Nat) a + S1024x4096.size a ≤ S1024x4096.size a
  h_S1024x4096 : 0 < S1024x4096.numel
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x4096_S64x4096_S1024x64_1_1_0_0_n_n_wf : DotDims.WF S1024x4096 S64x4096 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x4096_S64x4096_S1024x64_1_1_0_0_n_n : DotDims S1024x4096 S64x4096 S1024x64 where
  lhsContracting := [1]
  rhsContracting := [1]
  lhsNonContracting := [0]
  rhsNonContracting := [0]
  lhsBatch := []
  rhsBatch := []
  wf := dot_S1024x4096_S64x4096_S1024x64_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.LibSoftmaxRows.lean ====
/-
  The softmax along each row of an [M, N] array, as a whole-array function on the extended reals, in two spellings.

  For a row z its greatest entry μ is the fold of `max` over the row's entries from the float word of minus infinity,
  the exponentials are exp (z q − μ), and s is their sum over the row. One spelling multiplies each exponential by the
  reciprocal 1 / s (the 1 being the float word of one), the other divides each exponential by s. Where every entry of
  the row is a real number, μ is a real number, every exponential is a positive real, s is at least one of them and so
  is not zero, and then x / s = x · s⁻¹ = x · (1 · s⁻¹): the two spellings agree. At infinite entries they need not
  (s may vanish, and a quotient by zero is not the product with the quotient 1 / 0).
  Every entry of row p of either spelling depends on row p of the argument only.
-/
import Idealize.ShloMosaic.PureOps.Ideal.Laws
import Idealize.ShloMosaic.Lib.ValueIdx

noncomputable section

namespace Cert.SoftmaxRows

open Idealize.ShloMosaic Idealize.ShloMosaic.ValueIdx

/-! ## Extended reals that are real numbers -/

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) : IsReal (∑ i ∈ s, f i) :=
  Finset.sum_induction f IsReal (fun _ _ => IsReal.add) IsReal.zero h

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

theorem isReal_of_ne {x : EReal} (ht : x ≠ ⊤) (hb : x ≠ ⊥) : IsReal x :=
  ⟨x.toReal, (EReal.coe_toReal ht hb).symm⟩

/-! ## The two float words -/

/-- The float word of minus infinity is the least extended real. -/
theorem ofBits_neg_inf : Ideal.ofBits .f32 0xFF800000#32 = ⊥ := by
  simp [Ideal.ofBits, Ideal.ieee]

/-- The float word of one is one. -/
theorem ofBits_one : Ideal.ofBits .f32 0x3F800000#32 = 1 := by
  simp [Ideal.ofBits, Ideal.ieee, -EReal.coe_mul]; norm_num

/-! ## The softmax of a row -/

/-- The greatest entry of row `p`: the fold of `max` over the row from the float word of minus infinity. -/
def rowMax {M N : Nat} (Z : (⟨2, ![M, N]⟩ : Shape).Idx → EReal) (p : Fin M) : EReal :=
  (Finset.univ : Finset (Fin N)).fold max (Ideal.ofBits .f32 0xFF800000#32) (fun q => Z (ix2 p q))

/-- The exponential of an entry less its row's greatest entry. -/
def rowExp {M N : Nat} (Z : (⟨2, ![M, N]⟩ : Shape).Idx → EReal) (p : Fin M) (q : Fin N) : EReal :=
  Ideal.exp (Z (ix2 p q) - rowMax Z p)

/-- The sum over row `p` of those exponentials. -/
def rowExpSum {M N : Nat} (Z : (⟨2, ![M, N]⟩ : Shape).Idx → EReal) (p : Fin M) : EReal :=
  ∑ q : Fin N, rowExp Z p q

/-- The softmax along each row, each exponential MULTIPLIED by the reciprocal of the row's sum. -/
def softmaxRecip {M N : Nat} (Z : (⟨2, ![M, N]⟩ : Shape).Idx → EReal) : (⟨2, ![M, N]⟩ : Shape).Idx → EReal :=
  fun i => rowExp Z (i 0) (i 1) * Ideal.div (Ideal.ofBits .f32 0x3F800000#32) (rowExpSum Z (i 0))

/-- The softmax along each row, each exponential DIVIDED by the row's sum. -/
def softmaxQuot {M N : Nat} (Z : (⟨2, ![M, N]⟩ : Shape).Idx → EReal) : (⟨2, ![M, N]⟩ : Shape).Idx → EReal :=
  fun i => Ideal.div (rowExp Z (i 0) (i 1)) (rowExpSum Z (i 0))

/-! ## A row of the result depends on that row of the argument only -/

/-- Two arrays that agree on row `u` of the one and row `p` of the other have the same greatest entry there. -/
theorem rowMax_congr {M M' N : Nat} (Z : (⟨2, ![M, N]⟩ : Shape).Idx → EReal) (Z' : (⟨2, ![M', N]⟩ : Shape).Idx → EReal)
    (p : Fin M) (u : Fin M') (h : ∀ q : Fin N, Z (ix2 p q) = Z' (ix2 u q)) : rowMax Z p = rowMax Z' u := by
  unfold rowMax
  rw [show (fun q => Z (ix2 p q)) = fun q => Z' (ix2 u q) from funext h]

/-- the same exponentials, -/
theorem rowExp_congr {M M' N : Nat} (Z : (⟨2, ![M, N]⟩ : Shape).Idx → EReal) (Z' : (⟨2, ![M', N]⟩ : Shape).Idx → EReal)
    (p : Fin M) (u : Fin M') (h : ∀ q : Fin N, Z (ix2 p q) = Z' (ix2 u q)) (q : Fin N) : rowExp Z p q = rowExp Z' u q := by
  unfold rowExp
  rw [rowMax_congr Z Z' p u h, h q]

/-- the same sum of them, -/
theorem rowExpSum_congr {M M' N : Nat} (Z : (⟨2, ![M, N]⟩ : Shape).Idx → EReal) (Z' : (⟨2, ![M', N]⟩ : Shape).Idx → EReal)
    (p : Fin M) (u : Fin M') (h : ∀ q : Fin N, Z (ix2 p q) = Z' (ix2 u q)) : rowExpSum Z p = rowExpSum Z' u := by
  unfold rowExpSum
  exact Finset.sum_congr rfl fun q _ => rowExp_congr Z Z' p u h q

/-- and so the same softmax: a tile of rows of the softmax is the softmax of the tile. -/
theorem softmaxRecip_congr {M M' N : Nat} (Z : (⟨2, ![M, N]⟩ : Shape).Idx → EReal) (Z' : (⟨2, ![M', N]⟩ : Shape).Idx → EReal)
    (p : Fin M) (u : Fin M') (q : Fin N) (h : ∀ r : Fin N, Z (ix2 p r) = Z' (ix2 u r)) :
    softmaxRecip Z (ix2 p q) = softmaxRecip Z' (ix2 u q) := by
  show rowExp Z p q * Ideal.div _ (rowExpSum Z p) = rowExp Z' u q * Ideal.div _ (rowExpSum Z' u)
  rw [rowExp_congr Z Z' p u h q, rowExpSum_congr Z Z' p u h]

/-! ## On a row of real numbers the two spellings agree -/

/-- The greatest entry of a nonempty row of real numbers is a real number. -/
theorem rowMax_isReal {M N : Nat} (Z : (⟨2, ![M, N]⟩ : Shape).Idx → EReal) (p : Fin M) (q₀ : Fin N)
    (h : ∀ q : Fin N, IsReal (Z (ix2 p q))) : IsReal (rowMax Z p) := by
  unfold rowMax
  rw [ofBits_neg_inf]
  refine isReal_of_ne (ne_of_lt ?_) (ne_of_gt ?_)
  · exact (Finset.fold_max_lt _).mpr ⟨bot_lt_top, fun q _ => lt_top_iff_ne_top.mpr (h q).ne_top⟩
  · exact (Finset.lt_fold_max _).mpr (Or.inr ⟨q₀, Finset.mem_univ _, bot_lt_iff_ne_bot.mpr (h q₀).ne_bot⟩)

/-- The exponential of a real number is a positive real number. -/
theorem exp_sub_pos {x y : EReal} (hx : IsReal x) (hy : IsReal y) : 0 < Ideal.exp (x - y) := by
  obtain ⟨a, rfl⟩ := hx
  obtain ⟨b, rfl⟩ := hy
  rw [← EReal.coe_sub, Ideal.exp_coe]
  exact_mod_cast Real.exp_pos (a - b)

/-- The exponential is never negative. -/
theorem exp_nonneg (x : EReal) : 0 ≤ Ideal.exp x := by
  induction x using EReal.rec with
  | bot => exact le_of_eq Ideal.exp_bot.symm
  | coe r => rw [Ideal.exp_coe]; exact_mod_cast (Real.exp_pos r).le
  | top => rw [Ideal.exp_top]; exact le_top

/-- So the sum of the exponentials over a nonempty row of real numbers is not zero. -/
theorem rowExpSum_ne_zero {M N : Nat} (Z : (⟨2, ![M, N]⟩ : Shape).Idx → EReal) (p : Fin M) (q₀ : Fin N)
    (h : ∀ q : Fin N, IsReal (Z (ix2 p q))) : rowExpSum Z p ≠ 0 := by
  have hpos : 0 < rowExp Z p q₀ := exp_sub_pos (h q₀) (rowMax_isReal Z p q₀ h)
  have hle : rowExp Z p q₀ ≤ rowExpSum Z p :=
    Finset.single_le_sum (f := fun q => rowExp Z p q) (fun q _ => exp_nonneg _) (Finset.mem_univ q₀)
  exact ne_of_gt (lt_of_lt_of_le hpos hle)

/-- On a row of real numbers, dividing by the row's sum is multiplying by its reciprocal. -/
theorem softmaxQuot_eq_recip {M N : Nat} (Z : (⟨2, ![M, N]⟩ : Shape).Idx → EReal) (p : Fin M) (q : Fin N)
    (h : ∀ r : Fin N, IsReal (Z (ix2 p r))) : softmaxQuot Z (ix2 p q) = softmaxRecip Z (ix2 p q) := by
  have hs : rowExpSum Z p ≠ 0 := rowExpSum_ne_zero Z p q h
  show Ideal.div (rowExp Z p q) (rowExpSum Z p) = rowExp Z p q * Ideal.div (Ideal.ofBits .f32 0x3F800000#32) (rowExpSum Z p)
  rw [ofBits_one, Ideal.div, Ideal.div, if_neg hs, if_neg hs, one_mul]

end Cert.SoftmaxRows

end
-- ==== Proof.LibSoftmaxKernel.lean ====
/-
  The softmax along each row as a kernel body spells it on whole vectors, and as a whole-array function.

  A kernel body takes the row maximum by a lane reduction from the float word of minus infinity into a vector of one
  entry per row, casts that vector to a column, broadcasts the column over the row, subtracts, exponentiates, sums the
  exponentials by a lane reduction from zero, casts the sums to a column, divides the float word of one by it, broadcasts
  the quotient over the row and multiplies. Read at (p, q): the column forms read their operand at row p, the two lane
  reductions are the fold of `max` and the sum over the row's entries, and what is left is
  exp (z(p, q) − μ_p) · (1 / Σ_r exp (z(p, r) − μ_p)), the softmax of row p with the reciprocal multiplied in.
-/
import proofs.«156076_g26242250178691_cont_9to1_259_18_alg».proof.Proof.LibSoftmaxRows
import Idealize.ShloMosaic.Lib.Pipeline.Value
import Idealize.ShloMosaic.Lib.ValueLayout
import Idealize.ShloMosaic.PureOps.Ideal.Laws

noncomputable section

namespace Cert.SoftmaxRows

open Idealize.ShloMosaic Idealize.ShloMosaic.ValueIdx

/-! ## The column forms of a cast and a broadcast -/

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions along a row -/

/-- The reduced index `p` with column `k` put back is `(p, k)`. -/
theorem lift_ix1 {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum along the rows of an `[a, b]` vector is, at row `p`, the sum of the row's entries. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- A lane maximum along the rows is, at row `p`, the fold of `max` over the row's entries from the accumulator's word. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have hf : (src ∘ h.lift (ix1 p)) = fun k : Fin b => src (ix2 p k) := funext fun k => congrArg src (lift_ix1 h p k)
  exact congrArg (fun f => Finset.fold max (Ideal.ofBits .f32 acc) f (Finset.univ : Finset (Fin b))) hf

/-! ## The kernel body's spelling is the softmax with the reciprocal multiplied in -/

/-- The kernel body's chain of vector operations on an `[a, b]` vector `Z`. -/
def softmaxBody {a b : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ hφ' : FKind.Formats .f32)
    (hm : (0xFF800000#32 : BitVec 32) = FKind.maximumf.neutral .f32 hφ)
    (hs : (0x00000000#32 : BitVec 32) = FKind.add.neutral .f32 hφ') : FVec Ideal ⟨2, ![a, b]⟩ .f32 :=
  let E : FVec Ideal ⟨2, ![a, b]⟩ .f32 := exp (subf Z (broadcastTo ⟨2, ![a, b]⟩
    (shapeCast ⟨2, ![a, 1]⟩ (multiReduction .maximumf [1] ⟨1, ![a]⟩ Z 0xFF800000#32 hr hφ hm) hc) hb))
  mulf E (broadcastTo ⟨2, ![a, b]⟩ (divf (broadcast ⟨2, ![a, 1]⟩ (Scalar.ofBits (F := Ideal) .f32 0x3F800000#32))
    (shapeCast ⟨2, ![a, 1]⟩ (multiReduction .add [1] ⟨1, ![a]⟩ E 0x00000000#32 hr hφ' hs) hc)) hb)

/-- It is the softmax of each row, the exponentials multiplied by the reciprocal of their sum. -/
theorem softmaxBody_eq {a b : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ hφ' : FKind.Formats .f32)
    (hm : (0xFF800000#32 : BitVec 32) = FKind.maximumf.neutral .f32 hφ)
    (hs : (0x00000000#32 : BitVec 32) = FKind.add.neutral .f32 hφ') :
    softmaxBody Z hr hc hb hφ hφ' hm hs = softmaxRecip Z := by
  funext j
  obtain ⟨p, q, rfl⟩ : ∃ (p : Fin a) (q : Fin b), j = ix2 p q := ⟨j 0, j 1, eq_ix2 j⟩
  have hE : ∀ k : Fin b, (exp (subf Z (broadcastTo ⟨2, ![a, b]⟩
      (shapeCast ⟨2, ![a, 1]⟩ (multiReduction .maximumf [1] ⟨1, ![a]⟩ Z 0xFF800000#32 hr hφ hm) hc) hb)) : FVec Ideal ⟨2, ![a, b]⟩ .f32)
        (ix2 p k) = rowExp Z p k := by
    intro k
    show Ideal.exp (Z (ix2 p k) - broadcastTo ⟨2, ![a, b]⟩ _ hb (ix2 p k)) = Ideal.exp (Z (ix2 p k) - rowMax Z p)
    rw [broadcastTo_a1_ab_apply _ hb p k, shapeCast_a_a1_apply _ hc p 0, multiReduction_max_rows Z _ hr hφ hm p]
    rfl
  show softmaxBody Z hr hc hb hφ hφ' hm hs (ix2 p q) = rowExp Z p q * Ideal.div (Ideal.ofBits .f32 0x3F800000#32) (rowExpSum Z p)
  unfold softmaxBody
  dsimp only
  rw [mulf_apply, hE q, broadcastTo_a1_ab_apply _ hb p q, divf_apply, shapeCast_a_a1_apply _ hc p 0,
    multiReduction_add_rows _ _ hr hφ' hs p]
  unfold rowExpSum
  rw [Finset.sum_congr rfl fun k _ => hE k]
  rfl

end Cert.SoftmaxRows

end
-- ==== Proof.LibDotNT.lean ====
/-
  A matrix product that contracts the SECOND axis of both operands, read at a row and a column.

  Dimension numbers of a product of an [M, K] array l and an [N, K] array r that contract the left operand's axis 1
  against the right operand's axis 1, keep the left operand's axis 0 and the right operand's axis 0 as the result's two
  axes in that order, and have no batch axis: the contraction shape has the one axis of extent K, at a result index
  (p, c) and a contraction position a the left operand is read at (p, a) and the right operand at (c, a), and so the
  product into a zero accumulator is, at (p, c), the sum over a < K of l(p, a) · r(c, a) — l times the transpose of r,
  with no transpose written.
-/
import Idealize.ShloMosaic.PureOps.Ideal.Laws
import Idealize.ShloMosaic.Lib.ValueIdx

noncomputable section

namespace Cert.LibDotNT

open Idealize.ShloMosaic Idealize.ShloMosaic.ValueIdx

variable {M K N : Nat} (d : DotDims ⟨2, ![M, K]⟩ ⟨2, ![N, K]⟩ ⟨2, ![M, N]⟩)

/-- The six lists of dimension numbers that contract axis 1 of both operands. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

/-- One contracted axis. -/
theorem RowsByRows.rank (h : RowsByRows d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem RowsByRows.lhs0 (h : RowsByRows d) (i : (⟨2, ![M, N]⟩ : Shape).Idx) (q : d.contr.Idx) :
    (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem RowsByRows.lhs1 (h : RowsByRows d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the result's column. -/
theorem RowsByRows.rhs0 (h : RowsByRows d) (i : (⟨2, ![M, N]⟩ : Shape).Idx) (q : d.contr.Idx) :
    (d.rhsIdx i q 0).val = (i 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The right operand's column is the contraction position. -/
theorem RowsByRows.rhs1 (h : RowsByRows d) (i : (⟨2, ![M, N]⟩ : Shape).Idx) (q : d.contr.Idx) :
    (d.rhsIdx i q 1).val = (q ⟨0, by rw [h.rank]; exact Nat.one_pos⟩).val :=
  d.rhsIdx_val_of_single h.rc i q

/-- The contracted axis has the operands' shared extent. -/
theorem RowsByRows.size (h : RowsByRows d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

/-- The product into the zero accumulator at (p, c): the sum over the shared axis of l(p, a) · r(c, a). -/
theorem RowsByRows.matmul_zero_ix2 (h : RowsByRows d) {φ₁ φ₂ : FTy} (prec : Option ContractPrecision)
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ a : Fin K, l (ix2 p a) * r (ix2 c a) := by
  show FloatOps.matmul d prec l r (constant ⟨2, ![M, N]⟩ .f32 0x00000000#32) (ix2 p c) = _
  rw [Ideal.matmul_constant_zero_apply, ← Equiv.sum_comp (contrEquiv1 d K h.rank h.size).symm]
  refine Finset.sum_congr rfl fun a _ => ?_
  have hk := contrEquiv1_symm_val d K h.rank h.size a
  have el : d.lhsIdx (ix2 p c) ((contrEquiv1 d K h.rank h.size).symm a) = ix2 p a := funext fun x => Fin.ext (by
    match x with
    | ⟨0, _⟩ => exact h.lhs0 _ _
    | ⟨1, _⟩ => exact (h.lhs1 _ _).trans hk)
  have er : d.rhsIdx (ix2 p c) ((contrEquiv1 d K h.rank h.size).symm a) = ix2 c a := funext fun x => Fin.ext (by
    match x with
    | ⟨0, _⟩ => exact h.rhs0 _ _
    | ⟨1, _⟩ => exact (h.rhs1 _ _).trans hk)
  rw [el, er]

end Cert.LibDotNT

end
-- ==== Proof.LibRouterRows.lean ====
/-
  A linear layer followed by the softmax along each row: the router of a mixture of experts, as a whole-array function.

  For a token array X [M, K], a weight array W [N, K] (one row per expert) and a bias β with one entry per expert, the
  logit of token p for expert q is Σ_a X(p, a) · W(q, a) + β(q), and the router's output is the softmax of each token's
  row of logits (the exponentials multiplied by the reciprocal of their sum). Row p of the logits, and so of the output,
  depends on row p of X only: a tile of rows of X gives that tile of the output. Where X, W and β hold real numbers so
  do the logits, and then dividing by the sum of the exponentials gives the same output.
-/
import proofs.«156076_g26242250178691_cont_9to1_259_18_alg».proof.Proof.LibSoftmaxRows

noncomputable section

namespace Cert.RouterRows

open Idealize.ShloMosaic Idealize.ShloMosaic.ValueIdx Cert.SoftmaxRows

/-- The logits: X times the transpose of W, plus the bias of each column. -/
def logits {M K N : Nat} (X : (⟨2, ![M, K]⟩ : Shape).Idx → EReal) (W : (⟨2, ![N, K]⟩ : Shape).Idx → EReal)
    (β : Fin N → EReal) : (⟨2, ![M, N]⟩ : Shape).Idx → EReal :=
  fun i => (∑ a : Fin K, X (ix2 (i 0) a) * W (ix2 (i 1) a)) + β (i 1)

/-- The router: the softmax of each row of logits. -/
def router {M K N : Nat} (X : (⟨2, ![M, K]⟩ : Shape).Idx → EReal) (W : (⟨2, ![N, K]⟩ : Shape).Idx → EReal)
    (β : Fin N → EReal) : (⟨2, ![M, N]⟩ : Shape).Idx → EReal :=
  softmaxRecip (logits X W β)

/-- Real tokens, weights and biases give real logits. -/
theorem logits_isReal {M K N : Nat} (X : (⟨2, ![M, K]⟩ : Shape).Idx → EReal) (W : (⟨2, ![N, K]⟩ : Shape).Idx → EReal)
    (β : Fin N → EReal) (hX : ∀ i, IsReal (X i)) (hW : ∀ i, IsReal (W i)) (hβ : ∀ q, IsReal (β q))
    (i : (⟨2, ![M, N]⟩ : Shape).Idx) : IsReal (logits X W β i) :=
  IsReal.add (IsReal.sum _ _ fun a _ => IsReal.mul (hX _) (hW _)) (hβ _)

/-- Row `p` of the logits of a tile whose rows are rows `o`, `o + 1`, … of `X` is row `o + p` of the logits of `X`. -/
theorem logits_tile {Mb M K N : Nat} (x : (⟨2, ![Mb, K]⟩ : Shape).Idx → EReal) (X : (⟨2, ![M, K]⟩ : Shape).Idx → EReal)
    (w W : (⟨2, ![N, K]⟩ : Shape).Idx → EReal) (β β' : Fin N → EReal) (o : Nat)
    (hx : ∀ (p : Fin Mb) (a : Fin K) (u : Fin M), u.val = o + p.val → x (ix2 p a) = X (ix2 u a))
    (hw : ∀ i, w i = W i) (hβ : ∀ q, β q = β' q)
    (p : Fin Mb) (u : Fin M) (hu : u.val = o + p.val) (q : Fin N) :
    logits x w β (ix2 p q) = logits X W β' (ix2 u q) := by
  show (∑ a : Fin K, x (ix2 p a) * w (ix2 q a)) + β q = (∑ a : Fin K, X (ix2 u a) * W (ix2 q a)) + β' q
  rw [hβ q, Finset.sum_congr rfl fun a _ => by rw [hx p a u hu, hw]]

/-- So the softmax of the tile's logits, at row `p`, is the router's output at row `o + p`. -/
theorem router_tile {Mb M K N : Nat} (x : (⟨2, ![Mb, K]⟩ : Shape).Idx → EReal) (X : (⟨2, ![M, K]⟩ : Shape).Idx → EReal)
    (w W : (⟨2, ![N, K]⟩ : Shape).Idx → EReal) (β β' : Fin N → EReal) (o : Nat)
    (hx : ∀ (p : Fin Mb) (a : Fin K) (u : Fin M), u.val = o + p.val → x (ix2 p a) = X (ix2 u a))
    (hw : ∀ i, w i = W i) (hβ : ∀ q, β q = β' q)
    (y : (⟨2, ![Mb, N]⟩ : Shape).Idx) (i : (⟨2, ![M, N]⟩ : Shape).Idx)
    (hi0 : (i 0).val = o + (y 0).val) (hi1 : (i 1).val = (y 1).val) :
    softmaxRecip (logits x w β) y = router X W β' i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  exact softmaxRecip_congr _ _ p u v fun r => logits_tile x X w W β β' o hx hw hβ p u hi0 r

/-- On real tokens, weights and biases, the softmax spelt with a quotient is the router's output. -/
theorem softmaxQuot_logits {M K N : Nat} (X : (⟨2, ![M, K]⟩ : Shape).Idx → EReal) (W : (⟨2, ![N, K]⟩ : Shape).Idx → EReal)
    (β : Fin N → EReal) (hX : ∀ i, IsReal (X i)) (hW : ∀ i, IsReal (W i)) (hβ : ∀ q, IsReal (β q)) :
    softmaxQuot (logits X W β) = router X W β := by
  funext i
  obtain ⟨p, q, rfl⟩ : ∃ (p : Fin M) (q : Fin N), i = ix2 p q := ⟨i 0, i 1, eq_ix2 i⟩
  exact softmaxQuot_eq_recip _ p q fun r => logits_isReal X W β hX hW hβ _

end Cert.RouterRows

end
-- ==== Proof.Payload.lean ====
/-
  What the kernel body stores, as a function of the three blocks it loads.

  The body multiplies its block of token rows x [1024, 4096] by the weights w [64, 4096], contracting the second axis of
  both, into a zero accumulator; adds the bias row b [1, 64] to every row; and takes the softmax of each row, multiplying
  the exponentials by the reciprocal of their sum. So the stored block is the softmax of the logits
  Σ_a x(p, a) · w(q, a) + b(0, q) of the block's 1024 token rows.
-/
import proofs.«156076_g26242250178691_cont_9to1_259_18_alg».proof.Proof.Gen.KernelIdeal.Skeleton
import proofs.«156076_g26242250178691_cont_9to1_259_18_alg».proof.Proof.LibSoftmaxKernel
import proofs.«156076_g26242250178691_cont_9to1_259_18_alg».proof.Proof.LibDotNT
import proofs.«156076_g26242250178691_cont_9to1_259_18_alg».proof.Proof.LibRouterRows

noncomputable section

namespace Cert.KernelIdeal.Hand

open Cert.KernelIdeal Cert.KernelIdeal.Gen Idealize.ShloMosaic Idealize.ShloMosaic.ValueIdx
open Cert.SoftmaxRows Cert.RouterRows

/-- The body's product contracts the second axis of both operands. -/
theorem dot_rowsByRows : Cert.LibDotNT.RowsByRows dot_S1024x4096_S64x4096_S1024x64_1_1_0_0_n_n :=
  ⟨rfl, rfl, rfl, rfl, rfl, rfl⟩

/-- The product into the zero accumulator plus the broadcast bias row: the logits of the block's rows. -/
theorem block_logits (x0 : Vec Ideal S1024x4096 .f32) (x1 : Vec Ideal S64x4096 .f32) (x3 : Vec Ideal S1x64 .f32) :
    (addf (matmul (φ₁ := .f32) (φ₂ := .f32) dot_S1024x4096_S64x4096_S1024x64_1_1_0_0_n_n none x0 x1 (constant S1024x64 .f32 0x00000000#32))
        (broadcastTo S1024x64 (shapeCast S1x64 x3 shapeCasts_S1x64_S1x64) broadcasts_S1x64_S1024x64) : FVec Ideal S1024x64 .f32)
      = logits (M := 1024) (K := 4096) (N := 64) x0 x1 (fun q => x3 (ix2 (0 : Fin 1) q)) := by
  funext j
  obtain ⟨p, q, rfl⟩ : ∃ (p : Fin 1024) (q : Fin 64), j = ix2 p q := ⟨j 0, j 1, eq_ix2 j⟩
  rw [addf_apply, dot_rowsByRows.matmul_zero_ix2 none x0 x1 p q, broadcastTo_1b_ab_apply _ broadcasts_S1x64_S1024x64 p q,
    shapeCast_self]
  rfl

/-- The stored block: the softmax of each row of those logits. -/
theorem payload_eq (x0 : Vec Ideal S1024x4096 .f32) (x1 : Vec Ideal S64x4096 .f32) (x3 : Vec Ideal S1x64 .f32) :
    k0_pay1 (F := Ideal) x0 x1 x3
      = softmaxRecip (logits (M := 1024) (K := 4096) (N := 64) x0 x1 (fun q => x3 (ix2 (0 : Fin 1) q))) := by
  rw [← block_logits]
  exact softmaxBody_eq _ reduces_S1024x64_S1024 shapeCasts_S1024_S1024x1 broadcasts_S1024x1_S1024x64 (.inl rfl) (.inl rfl) rfl rfl

end Cert.KernelIdeal.Hand

end
-- ==== Proof.KernelValue.lean ====
/-
  The kernel's result array after its run: the router's output on the argument arrays.

  The grid has 32 points. At point t the token window holds rows 1024·t … 1024·t + 1023 of the token array, the weight
  window the whole weight array, the bias window the one row that the host's reshape makes of the bias vector, and the
  point writes back rows 1024·t … 1024·t + 1023 of the result. What it writes is the softmax of the logits of its 1024
  token rows, and a row of the router's output depends on that token row only, so the written block is that block of the
  router's output on the whole arrays. The 32 blocks cover the result array.
-/
import proofs.«156076_g26242250178691_cont_9to1_259_18_alg».proof.Proof.Gen.KernelIdeal.Value
import proofs.«156076_g26242250178691_cont_9to1_259_18_alg».proof.Proof.Payload
import Idealize.ShloMosaic.Lib.Pipeline.Value
import Idealize.ShloMosaic.Lib.StableHlo.Run
import Idealize.ShloMosaic.Lib.ValueLayout

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.SoftmaxRows Cert.RouterRows

variable (m : (ℓ : Loc nD τ sig) → Buf (Elt Ideal) ℓ) (ρ : Dev nD → PrngReg)

theorem hz : (![0, 0] : Fin 2 → Nat) = fun _ => 0 := funext fun a => by fin_cases a <;> rfl

/-- The router's output on the argument arrays of core `c`. -/
abbrev G (c : Dev nD) : S32768x64.Idx → EReal :=
  router (M := 32768) (K := 4096) (N := 64) (m ((c : Thread nD τ).loc main_arg0)) (m ((c : Thread nD τ).loc main_arg1))
    (fun q => (m ((c : Thread nD τ).loc main_arg2) : S64.Idx → EReal) (ix1 q))

/-- The printed index maps over the grid: the token and result windows move one block of rows per point, the weight and
    bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The token window's block at point `t` is rows `1024 t …` of the token array. -/
theorem iblk0_apply (c : Dev nD) (t : Fin cfg0.N) (p : Fin 1024) (a : Fin 4096) (u : Fin 32768) (hu : u.val = 1024 * t.val + p.val) :
    (iblk m c 0 t : Vec Ideal S1024x4096 .f32) (ix2 p a)
      = (m ((c : Thread nD τ).loc main_arg0) : S32768x4096.Idx → EReal) (ix2 u a) := by
  obtain ⟨e0, e1, -⟩ := idx_facts t
  unfold iblk
  rw [View.read_apply]
  show V m c main_arg0 _ = _
  rw [V_main_arg0]
  refine congrArg _ (funext fun x => Fin.ext ?_)
  match x with
  | ⟨0, _⟩ => show win0_0.index t (0 : Fin 2) * 1024 + 1 * p.val = u.val; rw [e0, hu]; omega
  | ⟨1, _⟩ => show win0_0.index t (1 : Fin 2) * 4096 + 1 * a.val = a.val; rw [e1]; omega

/-- The weight window's block at every point is the weight array. -/
theorem iblk1_apply (c : Dev nD) (t : Fin cfg0.N) (i : S64x4096.Idx) :
    (iblk m c 1 t : Vec Ideal S64x4096 .f32) i = (m ((c : Thread nD τ).loc main_arg1) : S64x4096.Idx → EReal) i := by
  obtain ⟨-, -, e0, e1, -⟩ := idx_facts t
  unfold iblk
  rw [View.read_apply]
  show V m c main_arg1 _ = _
  rw [V_main_arg1]
  refine congrArg _ (funext fun x => Fin.ext ?_)
  match x with
  | ⟨0, _⟩ => show win0_1.index t (0 : Fin 2) * 64 + 1 * (i 0).val = (i 0).val; rw [e0]; omega
  | ⟨1, _⟩ => show win0_1.index t (1 : Fin 2) * 4096 + 1 * (i 1).val = (i 1).val; rw [e1]; omega

/-- The array the bias window stages is the bias vector reshaped to one row by the host. -/
theorem V_bias (c : Dev nD) : (V m c main_v0 : S1x64.Idx → EReal)
    = shapeCast S1x64 (m ((c : Thread nD τ).loc main_arg2)) shapeCasts_S64_S1x64 := by
  dsimp only [Gen.V, Gen.hostOps0]
  after_results
  rfl

/-- The bias window's block at every point, at column `q`, is entry `q` of the bias vector. -/
theorem iblk2_apply (c : Dev nD) (t : Fin cfg0.N) (q : Fin 64) :
    (iblk m c 2 t : Vec Ideal S1x64 .f32) (ix2 (0 : Fin 1) q)
      = (m ((c : Thread nD τ).loc main_arg2) : S64.Idx → EReal) (ix1 q) := by
  obtain ⟨-, -, -, -, e0, e1, -⟩ := idx_facts t
  unfold iblk
  rw [View.read_apply]
  show V m c main_v0 _ = _
  rw [V_bias]
  refine Eq.trans (congrArg _ (funext fun x => Fin.ext ?_)) (shapeCast_a_1a_apply _ shapeCasts_S64_S1x64 (0 : Fin 1) q)
  match x with
  | ⟨0, _⟩ => show win0_2.index t (0 : Fin 2) * 1 + 1 * 0 = 0; rw [e0]
  | ⟨1, _⟩ => show win0_2.index t (1 : Fin 2) * 64 + 1 * q.val = q.val; rw [e1]; omega

/-- What point `t` writes back is block `t` of the router's output on the argument arrays. -/
theorem flushed_eq (c : Dev nD) (t : Fin cfg0.N) :
    (dats m 0 c).flushed 3 t = ((cfg0.win 3).blk t).view.read (Elt Ideal) (G m c) := by
  rw [flushed3]
  unfold out0_3
  rw [View.canon_unit_zero hz]
  simp only [View.ld_unit_zero (S := S1024x4096) hz, View.ld_unit_zero (S := S64x4096) hz, View.ld_unit_zero (S := S1x64) hz]
  rw [payload_eq]
  obtain ⟨-, -, -, -, -, -, e0, e1⟩ := idx_facts t
  funext y
  show softmaxRecip (logits (M := 1024) (K := 4096) (N := 64) (iblk m c 0 t) (iblk m c 1 t)
      (fun q => (iblk m c 2 t : Vec Ideal S1x64 .f32) (ix2 (0 : Fin 1) q))) y = G m c (((cfg0.win 3).blk t).view.emb y)
  refine router_tile (iblk m c 0 t) _ (iblk m c 1 t) _ _ _ (1024 * t.val) (fun p a u hu => iblk0_apply m c t p a u hu)
    (fun i => iblk1_apply m c t i) (fun q => iblk2_apply m c t q) y _ ?_ ?_
  · show win0_3.index t (0 : Fin 2) * 1024 + 1 * (y 0).val = 1024 * t.val + (y 0).val
    rw [e0]; omega
  · show win0_3.index t (1 : Fin 2) * 64 + 1 * (y 1).val = (y 1).val
    rw [e1]; omega

/-- An index of the result array is in point `t`'s block iff each coordinate is in the block's range on its axis. -/
theorem mem_blk (t : Fin cfg0.N) (i : S32768x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v1).slice (win0_3.rect t)).set ↔ _
  rw [View.set_slice_whole, Rect.mem_set_unit]
  exact Iff.rfl

/-- Every index of the result array is in the block of the point that its row, divided by 1024, names. -/
theorem cover (i : S32768x64.Idx) : ∃ t : Fin cfg0.N, (cfg0.win 3).flush t = true ∧ i ∈ ((cfg0.win 3).blk t).view.set := by
  have hN : cfg0.N = 32 := N_0
  have hi0 : (i 0).val < 32768 := (i 0).isLt
  have hi1 : (i 1).val < 64 := (i 1).isLt
  let t : Fin cfg0.N := ⟨(i 0).val / 1024, by rw [hN]; omega⟩
  obtain ⟨-, -, -, -, -, -, e0, e1⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 64 ≤ (i 1).val ∧ (i 1).val < win0_3.index t (1 : Fin 2) * 64 + 64
    rw [e1]; omega

/-- So the result array ends holding the router's output on the argument arrays. -/
theorem final (c : Dev nD) : (dats m 0 c).arrAt 3 cfg0.N = G m c :=
  (dats m 0 c).arrAt_eq_of_cover 3 (G m c) (fun t _ => flushed_eq m c t) cover

/-- The kernel's run, read: the result array at the router's output, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.LibSoftmaxHost.lean ====
/-
  The host's maximum reduction along the rows of an [a, b] array, read at a row.

  A one-operand reduce with a maximum body over axis 1, from an initial value, is at row p the fold of `max` over the
  row's entries from the initial value's element: the reduced index p with column k put back is (p, k).
-/
import proofs.«156076_g26242250178691_cont_9to1_259_18_alg».proof.Proof.LibSoftmaxKernel
import Idealize.ShloMosaic.PureOps.Ideal.Laws

noncomputable section

namespace Cert.SoftmaxRows

open Idealize.ShloMosaic Idealize.ShloMosaic.ValueIdx

/-- The host's reduce with a maximum body along the rows, at row `p`. -/
theorem hostReduce_max_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) := funext fun k => congrArg x (lift_ix1 h p k)
  exact congrArg (fun f => Finset.fold max (init (Shape.Idx.first hu)) f (Finset.univ : Finset (Fin b))) hf

end Cert.SoftmaxRows

end
-- ==== Proof.RefValue.lean ====
/-
  The reference's result as a function of its arguments: the softmax of each row of logits, spelt with a quotient.

  The reference transposes the weights and multiplies, which at (p, q) is Σ_a x(p, a) · w(q, a); adds the bias broadcast
  along the rows; takes each row's maximum by a reduce from minus infinity, and once more the maximum with minus infinity,
  which changes nothing; subtracts, exponentiates, sums each row from zero, and divides each exponential by its row's sum.
-/
import proofs.«156076_g26242250178691_cont_9to1_259_18_alg».proof.Proof.Gen.ReferenceIdeal.Read
import proofs.«156076_g26242250178691_cont_9to1_259_18_alg».proof.Proof.LibSoftmaxHost
import proofs.«156076_g26242250178691_cont_9to1_259_18_alg».proof.Proof.LibRouterRows

noncomputable section

namespace Cert.ReferenceIdeal.Hand

open Cert.ReferenceIdeal Cert.ReferenceIdeal.Gen Cert.ReferenceIdeal.Read Idealize.ShloMosaic Idealize.ShloMosaic.ValueIdx
open Cert.SoftmaxRows Cert.RouterRows

variable (x0 : (⟨S32768x4096, .f32⟩ : BufTy).Contents (Elt Ideal)) (x1 : (⟨S64x4096, .f32⟩ : BufTy).Contents (Elt Ideal))
  (x2 : (⟨S64, .f32⟩ : BufTy).Contents (Elt Ideal))

/-- The logits of the reference's arguments. -/
abbrev Z : S32768x64.Idx → EReal :=
  logits (M := 32768) (K := 4096) (N := 64) x0 x1 (fun q => (x2 : S64.Idx → EReal) (ix1 q))

/-- The product with the transposed weights plus the broadcast bias: the logits. -/
theorem ref_logits : val_main_v4 (F := Ideal) x0 x1 x2 = Z x0 x1 x2 := by
  funext i
  obtain ⟨p, q, rfl⟩ : ∃ (p : Fin 32768) (q : Fin 64), i = ix2 p q := ⟨i 0, i 1, eq_ix2 i⟩
  rw [val_main_v4_apply, val_main_v1_apply, val_main_v3_apply, val_main_v2_apply]
  have e2 : idx_main_v2 (idx_main_v3 (ix2 p q)) = ix1 q := funext fun a => Fin.ext (by match a with | ⟨0, _⟩ => rfl)
  rw [e2]
  show (∑ k : Fin 4096, x0 (lidx_main_v1 (ix2 p q) k) * val_main_v0 (F := Ideal) x1 (ridx_main_v1 (ix2 p q) k)) + x2 (ix1 q)
    = (∑ a : Fin 4096, x0 (ix2 p a) * x1 (ix2 q a)) + x2 (ix1 q)
  refine congrArg (· + x2 (ix1 q)) (Finset.sum_congr rfl fun k _ => ?_)
  rw [val_main_v0_apply]
  have el : lidx_main_v1 (ix2 p q) k = ix2 p k :=
    funext fun a => Fin.ext (by match a with | ⟨0, _⟩ => rfl | ⟨1, _⟩ => rfl)
  have er : idx_main_v0 (ridx_main_v1 (ix2 p q) k) = ix2 q k :=
    funext fun a => Fin.ext (by match a with | ⟨0, _⟩ => rfl | ⟨1, _⟩ => rfl)
  rw [el, er]

/-- The row maximum the reference subtracts is the greatest entry of the row of logits. -/
theorem ref_max (p : Fin 32768) : val_main_v7 (F := Ideal) x0 x1 x2 (ix1 p) = rowMax (Z x0 x1 x2) p := by
  rw [val_main_v7_apply, val_main_v6_apply, val_main_cst_0_apply]
  unfold val_main_v5
  rw [ref_logits, hostReduce_max_rows _ _ reducesTo_S32768x64_S32768_d1 (by decide) h_S_ p, val_main_cst_apply]
  show max (Ideal.ofBits .f32 0xFF800000#32) (rowMax (Z x0 x1 x2) p) = rowMax (Z x0 x1 x2) p
  rw [ofBits_neg_inf]
  exact max_eq_right bot_le

/-- The reference's exponentials are those of the row softmax. -/
theorem ref_exp (p : Fin 32768) (k : Fin 64) : val_main_v11 (F := Ideal) x0 x1 x2 (ix2 p k) = rowExp (Z x0 x1 x2) p k := by
  rw [val_main_v11_apply, val_main_v10_apply, val_main_v9_apply, val_main_v8_apply]
  have e : idx_main_v8 (idx_main_v9 (ix2 p k)) = ix1 p := funext fun a => Fin.ext (by match a with | ⟨0, _⟩ => rfl)
  rw [e, ref_max, ref_logits]
  rfl

/-- The reference's result: each exponential divided by its row's sum. -/
theorem ref_value : val_main_v15 (F := Ideal) x0 x1 x2 = softmaxQuot (Z x0 x1 x2) := by
  funext i
  obtain ⟨p, q, rfl⟩ : ∃ (p : Fin 32768) (q : Fin 64), i = ix2 p q := ⟨i 0, i 1, eq_ix2 i⟩
  rw [val_main_v15_apply, val_main_v14_apply, val_main_v13_apply, ref_exp]
  have e : idx_main_v13 (idx_main_v14 (ix2 p q)) = ix1 p := funext fun a => Fin.ext (by match a with | ⟨0, _⟩ => rfl)
  rw [e, val_main_v12_apply, val_main_cst_1_apply]
  have es : ∀ k : Fin 64, val_main_v11 (F := Ideal) x0 x1 x2 (idx_main_v12 (ix1 p) k) = rowExp (Z x0 x1 x2) p k := fun k => by
    have ek : idx_main_v12 (ix1 p) k = ix2 p k :=
      funext fun a => Fin.ext (by match a with | ⟨0, _⟩ => rfl | ⟨1, _⟩ => rfl)
    rw [ek, ref_exp]
  rw [Finset.sum_congr rfl fun k _ => es k]
  show Ideal.div (rowExp (Z x0 x1 x2) p q) (Ideal.ofBits .f32 0x00000000#32 + rowExpSum (Z x0 x1 x2) p)
    = Ideal.div (rowExp (Z x0 x1 x2) p q) (rowExpSum (Z x0 x1 x2) p)
  rw [Ideal.ofBits_zero_f32, zero_add]

end Cert.ReferenceIdeal.Hand

end
-- ==== Proof.Finite.lean ====
/-
  What the precondition says of the argument arrays: every entry is a real number.

  The precondition is the conjunction of three bits, one per argument: the reduction by `and`, over the whole array, of
  the comparison |x| < +∞ at each entry. The conjunction being 1 makes each bit 1, a reduction by `and` that is 1 had a 1
  at every entry, and an extended real whose absolute value max x (−x) is below the top element is neither infinity.
-/
import proofs.«156076_g26242250178691_cont_9to1_259_18_alg».proof.Pre_finite_inputs
import proofs.«156076_g26242250178691_cont_9to1_259_18_alg».proof.Proof.LibSoftmaxRows
import Idealize.ShloMosaic.Lib.ReduceAll
import Idealize.ShloMosaic.Lib.ValueIdx
import Idealize.ShloMosaic.PureOps.Ideal.Laws

noncomputable section

namespace Cert.Pre_finite_inputs.Hand

open Cert.Pre_finite_inputs Cert.Pre_finite_inputs.Facts Idealize.ShloMosaic Cert.SoftmaxRows

instance : Subsingleton S_.Idx := ⟨fun _ _ => funext fun d => d.elim0⟩

/-- A value whose absolute value compares below the float word of plus infinity is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine isReal_of_ne (ne_of_lt hlt.1) ?_
  intro hb
  subst hb
  simp at hlt

variable [Facts]

/-- Under the precondition every entry of the three argument arrays is a real number. -/
theorem isReal_of_pre (x0 : FVec Ideal S32768x4096 .f32) (x1 : FVec Ideal S64x4096 .f32) (x2 : FVec Ideal S64 .f32)
    (h : fn (F := Ideal) x0 x1 x2 = fun _ => 1#1) :
    (∀ i, IsReal (x0 i)) ∧ (∀ i, IsReal (x1 i)) ∧ (∀ i, IsReal (x2 i)) := by
  have h0 := congrFun h ValueIdx.ix0
  dsimp only [fn] at h0
  obtain ⟨h01, h2⟩ := IntOp.andi_eq_one.mp h0
  obtain ⟨h0', h1⟩ := IntOp.andi_eq_one.mp h01
  exact ⟨fun i => isReal_of_abs_lt _ (Host.reduce_andi_all _ _ reducesTo_S32768x4096_S_d0_1 h_S_ _ h0' i),
    fun i => isReal_of_abs_lt _ (Host.reduce_andi_all _ _ reducesTo_S64x4096_S_d0_1 h_S_ _ h1 i),
    fun i => isReal_of_abs_lt _ (Host.reduce_andi_all _ _ reducesTo_S64_S_d0 h_S_ _ h2 i)⟩

end Cert.Pre_finite_inputs.Hand

end
-- ==== Proof.lean ====
/-
  The router of a mixture of experts: logits = x · Wᵀ + b over 32768 tokens, 4096 features and 64 experts, then the
  softmax of each token's row of logits.

  The kernel walks the tokens in 32 blocks of 1024 rows. For each block it multiplies the block by the weights
  (contracting the feature axis of both, so no transpose is written), adds the bias row, and takes the softmax of each
  row as exp (z − μ) · (1 / Σ exp (z − μ)), μ the row's greatest entry. The reference transposes the weights, multiplies
  the whole token array, adds the bias, and takes the softmax of each row as exp (z − μ) / Σ exp (z − μ).

  On the extended reals both products are the same sums Σ_a x(p, a) · W(q, a), a row of the kernel's result depends on
  that token row only, so the 32 written blocks are the blocks of one whole-array function, and the two softmax spellings
  differ only in x · (1 / s) against x / s. These agree when s ≠ 0. The precondition makes every argument entry a real
  number; then the logits are real, each row's greatest entry is real, every exponential is a positive real, and the sum
  s of a row's exponentials is at least one of them, hence not zero. (With infinite entries s can vanish and the two
  spellings differ, so the precondition is used.)

  The idealization rewrote nothing, so the kernel's idealized text is its own text read on the extended reals.
-/
import proofs.«156076_g26242250178691_cont_9to1_259_18_alg».proof.Defs
import proofs.«156076_g26242250178691_cont_9to1_259_18_alg».proof.Proof.Gen.Kernel
import proofs.«156076_g26242250178691_cont_9to1_259_18_alg».proof.Proof.Gen.Kernel.Frame
import proofs.«156076_g26242250178691_cont_9to1_259_18_alg».proof.Proof.Gen.KernelIdeal
import proofs.«156076_g26242250178691_cont_9to1_259_18_alg».proof.Proof.Gen.KernelIdeal.Frame
import proofs.«156076_g26242250178691_cont_9to1_259_18_alg».proof.Proof.Gen.KernelIdeal.Value
import proofs.«156076_g26242250178691_cont_9to1_259_18_alg».proof.Proof.Gen.ReferenceIdeal
import proofs.«156076_g26242250178691_cont_9to1_259_18_alg».proof.Proof.Gen.ReferenceIdeal.Run
import proofs.«156076_g26242250178691_cont_9to1_259_18_alg».proof.Proof.Gen.ReferenceIdeal.Read
import proofs.«156076_g26242250178691_cont_9to1_259_18_alg».proof.Proof.Gen.Pre_finite_inputs
import proofs.«156076_g26242250178691_cont_9to1_259_18_alg».proof.Proof.KernelValue
import proofs.«156076_g26242250178691_cont_9to1_259_18_alg».proof.Proof.RefValue
import proofs.«156076_g26242250178691_cont_9to1_259_18_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the router's output on the argument arrays: the kernel block by block, the reference as the
    softmax spelt with a quotient, which on real arguments is the same function. -/
theorem algebraic : Cert.algebraic_KernelIdeal_ReferenceIdeal := by
  intro m ρ m' ρ' hpre hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Hand.ref_value, (hagree c).1, (hagree c).2.1,
    (hagree c).2.2]
  obtain ⟨h0, h1, h2⟩ := Cert.Pre_finite_inputs.Hand.isReal_of_pre _ _ _ (hpre c)
  exact Cert.RouterRows.softmaxQuot_logits _ _ _ h0 h1 (fun q => h2 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
